-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x256 : Shape := ⟨2, ![256, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x10000 .f32) (main_arg1 : FVec F S10000x256 .f32) (main_arg2 : FVec F S256x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x10000 : Shape := ⟨2, ![10000, 10000]⟩
abbrev S10000x256 : Shape := ⟨2, ![10000, 256]⟩
abbrev S256x256 : Shape := ⟨2, ![256, 256]⟩
abbrev S400x10000 : Shape := ⟨2, ![400, 10000]⟩
abbrev S400x256 : Shape := ⟨2, ![400, 256]⟩

abbrev nBuf : Space → Nat
  | .hbm => 4
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S400x10000, .f32⟩
  | .local _ .vmem, ⟨3, _⟩ => ⟨S400x10000, .f32⟩
  | .local _ .vmem, ⟨4, _⟩ => ⟨S400x256, .f32⟩
  | .local _ .vmem, ⟨5, _⟩ => ⟨S400x256, .f32⟩
  | .local _ .vmem, ⟨6, _⟩ => ⟨S10000x256, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  inb_S400x10000_S400x10000_0_0 : ∀ a, (![0, 0] : Fin 2 → Nat) a + S400x10000.size a ≤ S400x10000.size a
  h_S400x10000 : 0 < S400x10000.numel
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg1) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x256 : Shape := ⟨2, ![256, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x256, .f32⟩
  | .hbm, ⟨3, _⟩ => ⟨S10000x256, .f32⟩
  | .hbm, ⟨4, _⟩ => ⟨S10000x256, .f32⟩
  | .hbm, ⟨5, _⟩ => ⟨S_, .f32⟩
  | .hbm, ⟨6, _⟩ => ⟨S_, .f32⟩
  | .hbm, ⟨7, _⟩ => ⟨S10000x256, .f32⟩
  | .hbm, ⟨8, _⟩ => ⟨S10000x256, .i1⟩
  | .hbm, ⟨9, _⟩ => ⟨S_, .f32⟩
  | .hbm, ⟨10, _⟩ => ⟨S10000x256, .f32⟩
  | .hbm, ⟨11, _⟩ => ⟨S10000x256, .f32⟩
  | .hbm, ⟨12, _⟩ => ⟨S10000x256, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Pieces.lean ====
/-
  What one run of the kernel body leaves behind, as values.

  At the first grid point the body stores the product of the feature block and the weight block into the
  carried buffer, reads that buffer back, and stores the rectified product of the adjacency block with it
  into the output block. At every later point it only reads the carried buffer and stores the rectified
  product. Each buffer is written by one store covering it whole and read by loads covering it whole, so
  what a buffer ends holding is that one store's value.
-/
import proofs.«121845_g28767690949396_cont_9to1_1480_5_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

/-- A whole block starts at the origin. -/
theorem origin : (![0, 0] : Fin 2 → Nat) = fun _ => 0 := funext fun a => by fin_cases a <;> rfl

/-- First point: the carried buffer ends holding the product of the feature block `x0` and the weight block `x1`. -/
theorem carried_first (c : Dev nD) (i : grid0.Coords) (a1 : Memref sig .tc .vmem S10000x256 .f32) (h1 : a1.IsWhole) (a2 : Memref sig .tc .vmem S256x256 .f32) (h2 : a2.IsWhole) (a3 : Memref sig .tc .vmem S400x10000 .f32) (h3 : a3.IsWhole) (a4 : Memref sig .tc .vmem S400x256 .f32) (h4 : a4.IsWhole) (a5 : Memref sig .tc .vmem S10000x256 .f32) (h5 : a5.IsWhole) (hc : cond0_0 i)
    (x0 : Vec F S10000x256 .f32) (x1 : Vec F S256x256 .f32) (x2 : Vec F S400x10000 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero origin]
  simp only [View.readAt_eq_ld, h1.read_unread, h2.read_unread, View.ld_unit_zero (S := S10000x256) origin,
    View.ld_unit_zero (S := S256x256) origin]

/-- First point: the output block ends holding the rectified product of the adjacency block `x2` with the
    product just stored and read back. -/
theorem out_first (c : Dev nD) (i : grid0.Coords) (a1 : Memref sig .tc .vmem S10000x256 .f32) (h1 : a1.IsWhole) (a2 : Memref sig .tc .vmem S256x256 .f32) (h2 : a2.IsWhole) (a3 : Memref sig .tc .vmem S400x10000 .f32) (h3 : a3.IsWhole) (a4 : Memref sig .tc .vmem S400x256 .f32) (h4 : a4.IsWhole) (a5 : Memref sig .tc .vmem S10000x256 .f32) (h5 : a5.IsWhole) (hc : cond0_0 i)
    (x0 : Vec F S10000x256 .f32) (x1 : Vec F S256x256 .f32) (x2 : Vec F S400x10000 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero origin, View.readCov_unit_zero (S := S10000x256) _ origin]
  simp only [View.readAt_eq_ld, h1.read_unread, h2.read_unread, h3.read_unread, View.ld_unit_zero (S := S10000x256) origin,
    View.ld_unit_zero (S := S256x256) origin, View.ld_unit_zero (S := S400x10000) origin]

/-- Later points: the output block ends holding the rectified product of the adjacency block `x2` with
    what the carried buffer held, `xs`. -/
theorem out_later (c : Dev nD) (i : grid0.Coords) (a1 : Memref sig .tc .vmem S10000x256 .f32) (h1 : a1.IsWhole) (a2 : Memref sig .tc .vmem S256x256 .f32) (h2 : a2.IsWhole) (a3 : Memref sig .tc .vmem S400x10000 .f32) (h3 : a3.IsWhole) (a4 : Memref sig .tc .vmem S400x256 .f32) (h4 : a4.IsWhole) (a5 : Memref sig .tc .vmem S10000x256 .f32) (h5 : a5.IsWhole) (hc : ¬cond0_0 i)
    (x0 : Vec F S10000x256 .f32) (x1 : Vec F S256x256 .f32) (x2 : Vec F S400x10000 .f32) (xs : Vec F S10000x256 .f32) :
    out0_B_3 c i a1 h1 a2 h2 a3 h3 a4 h4 a5 h5 hc x0 x1 x2 xs = k0_pay2 x2 xs := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero origin]
  simp only [View.readAt_eq_ld, h3.read_unread, h5.read_unread, View.ld_unit_zero (S := S400x10000) origin,
    View.ld_unit_zero (S := S10000x256) origin]

end Cert.KernelIdeal.Pieces

end
-- ==== Proof.Carried.lean ====
/-
  What the carried buffer holds after each grid point.

  The first point stores into it the product of the feature block and the weight block it was given;
  no later point stores into it. So after every point it holds the first point's product: by induction
  on the point, the first point by what its run leaves, a later point by what the point before left.
-/
import proofs.«121845_g28767690949396_cont_9to1_1480_5_alg».proof.Proof.Pieces

noncomputable section

namespace Cert.KernelIdeal.Carried

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The grid is not empty. -/
theorem grid_pos : 0 < cfg0.N := by rw [show cfg0.N = 25 from N_0]; decide

/-- After every point the carried buffer holds the product of the first point's feature and weight blocks. -/
theorem carried_eq (c : Dev nD) (h0 : 0 < cfg0.N) : ∀ (n : ℕ) (hn : n < cfg0.N),
    (outsAt0 m c n hn).2 = k0_pay1 (iblk m c 0 ⟨0, h0⟩) (iblk m c 1 ⟨0, h0⟩)
  | 0, h => by
    rw [outsAt0_A m c ⟨0, h⟩ rfl]
    dsimp only
    exact Pieces.carried_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) scM0_0 (Memref.isWhole_whole _) _
      (iblk m c 0 ⟨0, h⟩) (iblk m c 1 ⟨0, h⟩) (iblk m c 2 ⟨0, h⟩)
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact carried_eq c h0 n _

end Cert.KernelIdeal.Carried

end
-- ==== Proof.Spec.lean ====
/-
  The function both programs compute, index by index over the extended reals.

  With A : 10000 × 10000 (the adjacency) and S : 10000 × 256 (the projected features x · W, which both
  programs form by the same product and which is therefore carried here as one array), put
    agg A S p q = ∑ k, A p k * S k q          (row p of A against column q of S)
  and the result at (p, q) is agg when 0 ≤ agg, and slope * agg otherwise: the leaky rectifier, with
  the zero and the slope the same binary words on both sides, so neither word is ever evaluated.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The adjacency's shape and the features' shape. -/
abbrev SAdj : Shape := ⟨2, ![10000, 10000]⟩
abbrev SFeat : Shape := ⟨2, ![10000, 256]⟩

/-- The leaky rectifier on one extended real: `a` where `0 ≤ a`, the slope times `a` elsewhere. -/
def leaky (a : Ideal .f32) : Ideal .f32 :=
  Scalar.select (FloatOps.cmpf .oge a (FloatOps.ofBits .f32 0x00000000#32)) a
    (FloatOps.mulf (FloatOps.ofBits .f32 0x3C23D70A#32) a)

/-- Row `p` of the adjacency against column `q` of the projected features. -/
def agg (A : FVec Ideal SAdj .f32) (S : FVec Ideal SFeat .f32) (p : Fin 10000) (q : Fin 256) : Ideal .f32 :=
  ∑ k : Fin 10000, A (ix2 p k) * S (ix2 k q)

/-- The layer's output: the rectified aggregation at every (node, feature). -/
def G (A : FVec Ideal SAdj .f32) (S : FVec Ideal SFeat .f32) : FVec Ideal SFeat .f32 :=
  fun i => leaky (agg A S (i 0) (i 1))

theorem G_ix2 (A : FVec Ideal SAdj .f32) (S : FVec Ideal SFeat .f32) (p : Fin 10000) (q : Fin 256) :
    G A S (ix2 p q) = leaky (agg A S p q) := rfl

end Cert.Gcn

end
-- ==== Proof.Payload.lean ====
/-
  The kernel body's two stored values, read over the extended reals.

  The value stored into the carried buffer is the product of the feature block and the weight block,
  accumulated into a zero block and then re-laid in its own shape: that is the plain product, since
  adding to zero changes nothing and the re-laying is the identity.

  The value stored into the output block is, at (p, q) of the 400 × 256 block, the rectifier of the
  product's entry there, and that entry is row p of the adjacency block against column q of the
  carried buffer: the one contracted axis has 10000 coordinates.
-/
import proofs.«121845_g28767690949396_cont_9to1_1480_5_alg».proof.Proof.Gen.KernelIdeal.Skeleton
import proofs.«121845_g28767690949396_cont_9to1_1480_5_alg».proof.Proof.Spec
import Idealize.ShloMosaic.Lib.ValueIdx
import Idealize.ShloMosaic.Lib.KernelVsHost
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The projected features as the host would form them from the same two blocks. -/
abbrev support (x : FVec Ideal S10000x256 .f32) (W : FVec Ideal S256x256 .f32) : FVec Ideal S10000x256 .f32 :=
  Host.dotGeneral dot_S10000x256_S256x256_S10000x256_1_0_0_1_n_n none x W

/-- The value stored into the carried buffer is the plain product of the two blocks. -/
theorem carried_value (x : FVec Ideal S10000x256 .f32) (W : FVec Ideal S256x256 .f32) :
    k0_pay1 (F := Ideal) x W = support x W := by
  unfold k0_pay1
  exact (shapeCast_self _ _).trans (matmul_zero_eq_dotGeneral dot_S10000x256_S256x256_S10000x256_1_0_0_1_n_n none x W)

/-- The adjacency block's index at output (p, q) and contraction coordinate k is (p, k). -/
theorem lhs_at (p : Fin 400) (q : Fin 256) (k : Fin 10000) :
    dot_S400x10000_S10000x256_S400x256_1_0_0_1_n_n.lhsIdx (ix2 p q) ((contrEquiv1 dot_S400x10000_S10000x256_S400x256_1_0_0_1_n_n 10000 rfl rfl).symm k) = ix2 p k := by
  funext a; apply Fin.ext
  match a with
  | ⟨0, _⟩ => rfl
  | ⟨1, _⟩ => exact (dot_S400x10000_S10000x256_S400x256_1_0_0_1_n_n.lhsIdx_val_of_single rfl _ _).trans (contrEquiv1_symm_val dot_S400x10000_S10000x256_S400x256_1_0_0_1_n_n 10000 rfl rfl k)

/-- The carried buffer's index there is (k, q). -/
theorem rhs_at (p : Fin 400) (q : Fin 256) (k : Fin 10000) :
    dot_S400x10000_S10000x256_S400x256_1_0_0_1_n_n.rhsIdx (ix2 p q) ((contrEquiv1 dot_S400x10000_S10000x256_S400x256_1_0_0_1_n_n 10000 rfl rfl).symm k) = ix2 k q := by
  funext a; apply Fin.ext
  match a with
  | ⟨0, _⟩ => exact (dot_S400x10000_S10000x256_S400x256_1_0_0_1_n_n.rhsIdx_val_of_single rfl _ _).trans (contrEquiv1_symm_val dot_S400x10000_S10000x256_S400x256_1_0_0_1_n_n 10000 rfl rfl k)
  | ⟨1, _⟩ => rfl

/-- The block product into a zero block, at (p, q): row p of the block against column q of the buffer. -/
theorem block_dot_apply (B : FVec Ideal S400x10000 .f32) (S : FVec Ideal S10000x256 .f32) (p : Fin 400) (q : Fin 256) :
    matmul (F := Ideal) dot_S400x10000_S10000x256_S400x256_1_0_0_1_n_n none B S (constant S400x256 .f32 0x00000000#32) (ix2 p q)
      = ∑ k : Fin 10000, B (ix2 p k) * S (ix2 k q) := by
  show FloatOps.matmul dot_S400x10000_S10000x256_S400x256_1_0_0_1_n_n none B S (constant S400x256 .f32 0x00000000#32) (ix2 p q) = _
  rw [Ideal.matmul_constant_zero_apply, ← Equiv.sum_comp (contrEquiv1 dot_S400x10000_S10000x256_S400x256_1_0_0_1_n_n 10000 rfl rfl).symm]
  refine Finset.sum_congr rfl fun k _ => ?_
  rw [lhs_at, rhs_at]

/-- The value stored into the output block, at (p, q): the rectifier of that row-by-column sum. -/
theorem out_value_apply (B : FVec Ideal S400x10000 .f32) (S : FVec Ideal S10000x256 .f32) (p : Fin 400) (q : Fin 256) :
    k0_pay2 (F := Ideal) B S (ix2 p q) = Cert.Gcn.leaky (∑ k : Fin 10000, B (ix2 p k) * S (ix2 k q)) :=
  (show k0_pay2 (F := Ideal) B S (ix2 p q)
      = Cert.Gcn.leaky (matmul (F := Ideal) dot_S400x10000_S10000x256_S400x256_1_0_0_1_n_n none B S (constant S400x256 .f32 0x00000000#32) (ix2 p q)) from rfl).trans
    (congrArg Cert.Gcn.leaky (block_dot_apply B S p q))

end Cert.KernelIdeal.Payload

end
-- ==== Proof.Blocks.lean ====
/-
  From what each grid point writes back to the whole result array.

  The grid has 25 points. At every point the feature window and the weight window show their whole
  arrays (block index (0, 0), the block the array's size); the adjacency window shows rows
  400 t … 400 t + 399, all columns; the output window shows the same rows of the result. So entry
  (p, k) of the adjacency block at point t is entry (400 t + p, k) of the adjacency, and entry (p, q) of
  what point t writes back lands at (400 t + p, q) of the result.

  What a point writes back is the rectified product of its adjacency block with the carried buffer, and
  the carried buffer holds the projected features at every point; entry (p, q) of that product is row
  400 t + p of the adjacency against column q of the projected features: the specification's function
  at (400 t + p, q). Row r of the result is covered by point r / 400, so the whole array ends at the
  specification's function.
-/
import proofs.«121845_g28767690949396_cont_9to1_1480_5_alg».proof.Proof.Carried
import proofs.«121845_g28767690949396_cont_9to1_1480_5_alg».proof.Proof.Payload
import proofs.«121845_g28767690949396_cont_9to1_1480_5_alg».proof.Proof.Gen.KernelIdeal.Value
import Idealize.ShloMosaic.Lib.Pipeline.Value

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four index maps over the grid: features and weights always at block (0, 0); adjacency and
    output at block (t, 0). -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s blocks, as a row of the arrays. -/
def row (t : Fin cfg0.N) (p : Fin 400) : Fin 10000 :=
  ⟨400 * t.val + p.val, by
    have h1 : t.val < 25 := lt_of_lt_of_eq t.isLt (show cfg0.N = 25 from N_0)
    have h2 := p.isLt
    omega⟩

/-- The feature window's block at any point is the whole feature array. -/
theorem feat_block (c : Dev nD) (t : Fin cfg0.N) :
    (iblk m c 0 t : Vec Ideal S10000x256 .f32) = (m ((c : Thread nD τ).loc main_arg1)) := by
  obtain ⟨e0, e1, -⟩ := index_facts t
  funext j
  show V m c main_arg1 (((cfg0.win 0).blk t).view.emb j) = V m c main_arg1 j
  refine congrArg _ ?_
  funext a; apply Fin.ext
  match a with
  | ⟨0, _⟩ => show win0_0.index t (0 : Fin 2) * 10000 + 1 * (j 0).val = (j 0).val; rw [e0]; omega
  | ⟨1, _⟩ => show win0_0.index t (1 : Fin 2) * 256 + 1 * (j 1).val = (j 1).val; rw [e1]; omega

/-- The weight window's block at any point is the whole weight array. -/
theorem weight_block (c : Dev nD) (t : Fin cfg0.N) :
    (iblk m c 1 t : Vec Ideal S256x256 .f32) = (m ((c : Thread nD τ).loc main_arg2)) := by
  obtain ⟨-, -, e2, e3, -⟩ := index_facts t
  funext j
  show V m c main_arg2 (((cfg0.win 1).blk t).view.emb j) = V m c main_arg2 j
  refine congrArg _ ?_
  funext a; apply Fin.ext
  match a with
  | ⟨0, _⟩ => show win0_1.index t (0 : Fin 2) * 256 + 1 * (j 0).val = (j 0).val; rw [e2]; omega
  | ⟨1, _⟩ => show win0_1.index t (1 : Fin 2) * 256 + 1 * (j 1).val = (j 1).val; rw [e3]; omega

/-- Entry (p, k) of the adjacency block at point `t` is entry (400 t + p, k) of the adjacency. -/
theorem adj_block_apply (c : Dev nD) (t : Fin cfg0.N) (p : Fin 400) (k : Fin 10000) :
    (iblk m c 2 t : Vec Ideal S400x10000 .f32) (ix2 p k) = (m ((c : Thread nD τ).loc main_arg0)) (ix2 (row t p) k) := by
  obtain ⟨-, -, -, -, e4, e5, -⟩ := index_facts t
  show V m c main_arg0 (((cfg0.win 2).blk t).view.emb (ix2 p k : S400x10000.Idx)) = V m c main_arg0 (ix2 (row t p) k)
  refine congrArg _ ?_
  funext a; apply Fin.ext
  match a with
  | ⟨0, _⟩ => show win0_2.index t (0 : Fin 2) * 400 + 1 * p.val = 400 * t.val + p.val; rw [e4]; omega
  | ⟨1, _⟩ => show win0_2.index t (1 : Fin 2) * 10000 + 1 * k.val = k.val; rw [e5]; omega

/-- Entry (p, q) of the output block at point `t` sits at (400 t + p, q) of the result. -/
theorem out_emb (t : Fin cfg0.N) (p : Fin 400) (q : Fin 256) :
    ((cfg0.win 3).blk t).view.emb (ix2 p q : S400x256.Idx) = ix2 (row t p) q := by
  obtain ⟨-, -, -, -, -, -, e6, e7⟩ := index_facts t
  funext a; apply Fin.ext
  match a with
  | ⟨0, _⟩ => show win0_3.index t (0 : Fin 2) * 400 + 1 * p.val = 400 * t.val + p.val; rw [e6]; omega
  | ⟨1, _⟩ => show win0_3.index t (1 : Fin 2) * 256 + 1 * q.val = q.val; rw [e7]; omega

/-- The projected features, from the launch contents of the feature and weight arrays. -/
abbrev projected (c : Dev nD) : FVec Ideal S10000x256 .f32 := Payload.support (m ((c : Thread nD τ).loc main_arg1)) (m ((c : Thread nD τ).loc main_arg2))

/-- The result array: the specification's function of the adjacency and the projected features. -/
abbrev result (c : Dev nD) : FVec Ideal S10000x256 .f32 := Cert.Gcn.G (m ((c : Thread nD τ).loc main_arg0)) (projected m c)

/-- The carried buffer holds the projected features after every point. -/
theorem carried_projected (c : Dev nD) (n : ℕ) (hn : n < cfg0.N) : (outsAt0 m c n hn).2 = projected m c := by
  refine (Carried.carried_eq m c Carried.grid_pos n hn).trans ?_
  rw [feat_block m c ⟨0, Carried.grid_pos⟩, weight_block m c ⟨0, Carried.grid_pos⟩]
  exact Payload.carried_value _ _

/-- What the output's staging block holds after point `t`: the rectified product of the point's adjacency
    block with the projected features. -/
theorem staged (c : Dev nD) (t : Fin cfg0.N) :
    (outsAt0 m c t.val t.isLt).1 = k0_pay2 (iblk m c 2 t) (projected m c) := by
  by_cases h0 : t.val % 25 = 0
  · rw [outsAt0_A m c t h0]
    dsimp only
    refine (Pieces.out_first c (grid0.coords t) (ms0_0 t) (hs0_0 t) (ms0_1 t) (hs0_1 t) (ms0_2 t) (hs0_2 t) (ms0_3 t) (hs0_3 t) scM0_0 (Memref.isWhole_whole _) ((hcond0_0 t).mpr h0)
      (iblk m c 0 t) (iblk m c 1 t) (iblk m c 2 t)).trans ?_
    refine congrArg (k0_pay2 (iblk m c 2 t)) ?_
    rw [feat_block m c t, weight_block m c t]
    exact Payload.carried_value _ _
  · rw [outsAt0_B m c t h0]
    dsimp only
    refine (Pieces.out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t) _).trans ?_
    exact congrArg (k0_pay2 (iblk m c 2 t)) (carried_projected m c _ _)

/-- That value at (p, q) is the specification's function at (400 t + p, q). -/
theorem staged_apply (c : Dev nD) (t : Fin cfg0.N) (p : Fin 400) (q : Fin 256) :
    k0_pay2 (F := Ideal) (iblk m c 2 t) (projected m c) (ix2 p q) = result m c (ix2 (row t p) q) := by
  refine (Payload.out_value_apply (iblk m c 2 t) (projected m c) p q).trans ?_
  show _ = Cert.Gcn.leaky (Cert.Gcn.agg (m ((c : Thread nD τ).loc main_arg0)) (projected m c) (row t p) q)
  refine congrArg Cert.Gcn.leaky (Finset.sum_congr rfl fun k _ => ?_)
  exact congrArg (· * projected m c (ix2 k q)) (adj_block_apply m c t p k)

/-- What point `t` writes back is its block of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, staged m c t]
  funext j
  obtain ⟨p, q, rfl⟩ : ∃ (p : Fin 400) (q : Fin 256), j = (ix2 p q : S400x256.Idx) := ⟨j 0, j 1, eq_ix2 j⟩
  show k0_pay2 (F := Ideal) (iblk m c 2 t) (projected m c) (ix2 p q) = result m c (((cfg0.win 3).blk t).view.emb (ix2 p q : S400x256.Idx))
  rw [out_emb t p q]
  exact staged_apply m c t p q

/-- An index of the result is in point `t`'s block iff each coordinate is in the block's range. -/
theorem mem_block (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v0).slice (win0_3.rect t)).set ↔ _
  rw [View.set_slice_whole, Rect.mem_set_unit]
  exact Iff.rfl

/-- Every index of the result is in the block of the point that owns its row. -/
theorem covered (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 25 := N_0
  refine ⟨⟨(i 0).val / 400, by rw [hN]; omega⟩, flush0_3 _, ?_⟩
  rw [mem_block]
  obtain ⟨-, -, -, -, -, -, e6, e7⟩ := index_facts ⟨(i 0).val / 400, by rw [hN]; omega⟩
  intro a
  match a with
  | ⟨0, _⟩ =>
    show win0_3.index _ (0 : Fin 2) * 400 ≤ (i 0).val ∧ (i 0).val < win0_3.index _ (0 : Fin 2) * 400 + 400
    rw [e6]; dsimp only; omega
  | ⟨1, _⟩ =>
    show win0_3.index _ (1 : Fin 2) * 256 ≤ (i 1).val ∧ (i 1).val < win0_3.index _ (1 : Fin 2) * 256 + 256
    rw [e7]; omega

/-- The result array after the run is the specification's function. -/
theorem final (c : Dev nD) : (dats m 0 c).arrAt 3 cfg0.N = result m c :=
  (dats m 0 c).arrAt_eq_of_cover 3 (result m c) (fun t _ => flushed_eq m c t) covered

/-- The run, read: the result at the specification's function, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefRun.lean ====
/-
  The reference's run, read back. Its main is two matrix products (the features against the weights,
  then the adjacency against that), the slope as a constant, and the leaky rectifier, which is printed as
  a call whose body is: a zero broadcast, the comparison 0 ≤ v, the slope broadcast, the product
  slope * v, and a call that selects between v and the product. With both calls opened at their sites
  this is a straight line of ten operations, and every execution ends with the result at their
  composition applied to the three arguments.
-/
import proofs.«121845_g28767690949396_cont_9to1_1480_5_alg».proof.ReferenceIdeal
import proofs.«121845_g28767690949396_cont_9to1_1480_5_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The ten operations, in order: main's three, then the rectifier's six, then the select. -/
abbrev ops : List (HloOp τ sig (Elt F)) :=
  [ binary main_arg1 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg0 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    nullary main_cst (constant S_ .f32 0x3C23D70A#32),
    TRef.nullary main_call0.cst (constant S_ .f32 0x00000000#32),
    TRef.unary main_call0.cst main_call0.v0 (broadcastInDim S10000x256 ![] bcast_S_S10000x256),
    TRef.binary (.of main_v1) main_call0.v0 main_call0.v1 (cmpf .oge),
    TRef.unary (.of main_cst) main_call0.v2 id,
    TRef.unary main_call0.v2 main_call0.v3 (broadcastInDim S10000x256 ![] bcast_S_S10000x256),
    TRef.binary main_call0.v3 (.of main_v1) main_call0.v4 mulf,
    TRef.ternary main_call0.v1 (.of main_v1) main_call0.v4 main_call0.call0.v0 select ]

/-- Main is that straight line: the two bodies opened at their calls, the sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., nullary_bufs_sub .., nullary_bufs_sub .., unary_bufs_sub .., binary_bufs_sub ..,
    unary_bufs_sub .., unary_bufs_sub .., binary_bufs_sub .., ternary_bufs_sub ..⟩

/-- The features projected by the weights, as the reference forms them. -/
abbrev support (x : FVec F S10000x256 .f32) (W : FVec F S256x256 .f32) : FVec F S10000x256 .f32 :=
  Host.dotGeneral dot_S10000x256_S256x256_S10000x256_1_0_0_1_n_n none x W

/-- The rectifier's six operations and the select, applied to an array `v`. -/
abbrev rectify (v : FVec F S10000x256 .f32) : FVec F S10000x256 .f32 :=
  select (cmpf .oge v (broadcastInDim S10000x256 ![] bcast_S_S10000x256 (constant S_ .f32 0x00000000#32))) v
    (mulf (broadcastInDim S10000x256 ![] bcast_S_S10000x256 (id (constant S_ .f32 0x3C23D70A#32))) v)

/-- What the result buffer ends holding, of the three arguments. -/
abbrev out (A : FVec F S10000x10000 .f32) (x : FVec F S10000x256 .f32) (W : FVec F S256x256 .f32) : FVec F S10000x256 .f32 :=
  rectify (Host.dotGeneral dot_S10000x10000_S10000x256_S10000x256_1_0_0_1_n_n none A (support x W))

/-- From any memory with zero counters every weakly fair execution of main terminates with the result at
    `out` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.RefRun

end
-- ==== Proof.RefValue.lean ====
/-
  The reference's result, index by index: it is the specification's function of the adjacency and of
  the projected features.

  The rectifier's operations are pointwise, so at an index they are the scalar rectifier of the entry.
  The adjacency product at (p, q) is a sum over its one contracted axis of the left operand at (p, k)
  times the right operand at (k, q): the contraction index is its one coordinate k.
-/
import proofs.«121845_g28767690949396_cont_9to1_1480_5_alg».proof.Proof.RefRun
import proofs.«121845_g28767690949396_cont_9to1_1480_5_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.ValueIdx

/-- The rectifier's operations at an index are the scalar rectifier of the entry there. -/
theorem rectify_apply (v : FVec Ideal S10000x256 .f32) (i : S10000x256.Idx) :
    rectify (F := Ideal) v i = Cert.Gcn.leaky (v i) := rfl

/-- The left operand's index at output (p, q) and contraction coordinate k is (p, k). -/
theorem lhs_at (p : Fin 10000) (q : Fin 256) (k : Fin 10000) :
    dot_S10000x10000_S10000x256_S10000x256_1_0_0_1_n_n.lhsIdx (ix2 p q) ((contrEquiv1 dot_S10000x10000_S10000x256_S10000x256_1_0_0_1_n_n 10000 rfl rfl).symm k) = ix2 p k := by
  funext a; apply Fin.ext
  match a with
  | ⟨0, _⟩ => rfl
  | ⟨1, _⟩ => exact (dot_S10000x10000_S10000x256_S10000x256_1_0_0_1_n_n.lhsIdx_val_of_single rfl _ _).trans (contrEquiv1_symm_val dot_S10000x10000_S10000x256_S10000x256_1_0_0_1_n_n 10000 rfl rfl k)

/-- The right operand's index there is (k, q). -/
theorem rhs_at (p : Fin 10000) (q : Fin 256) (k : Fin 10000) :
    dot_S10000x10000_S10000x256_S10000x256_1_0_0_1_n_n.rhsIdx (ix2 p q) ((contrEquiv1 dot_S10000x10000_S10000x256_S10000x256_1_0_0_1_n_n 10000 rfl rfl).symm k) = ix2 k q := by
  funext a; apply Fin.ext
  match a with
  | ⟨0, _⟩ => exact (dot_S10000x10000_S10000x256_S10000x256_1_0_0_1_n_n.rhsIdx_val_of_single rfl _ _).trans (contrEquiv1_symm_val dot_S10000x10000_S10000x256_S10000x256_1_0_0_1_n_n 10000 rfl rfl k)
  | ⟨1, _⟩ => rfl

/-- The adjacency product at (p, q) is row p of the adjacency against column q of the right operand. -/
theorem adj_dot_apply (A : FVec Ideal S10000x10000 .f32) (S : FVec Ideal S10000x256 .f32) (p : Fin 10000) (q : Fin 256) :
    Host.dotGeneral (F := Ideal) dot_S10000x10000_S10000x256_S10000x256_1_0_0_1_n_n none A S (ix2 p q) = Cert.Gcn.agg A S p q := by
  show FloatOps.dotGeneral dot_S10000x10000_S10000x256_S10000x256_1_0_0_1_n_n none .single A S (ix2 p q) = _
  rw [Ideal.dotGeneral_apply]
  unfold Cert.Gcn.agg
  rw [← Equiv.sum_comp (contrEquiv1 dot_S10000x10000_S10000x256_S10000x256_1_0_0_1_n_n 10000 rfl rfl).symm]
  refine Finset.sum_congr rfl fun k _ => ?_
  rw [lhs_at, rhs_at]

/-- The reference's result is the specification's function of the adjacency and the projected features. -/
theorem out_eq (A : FVec Ideal S10000x10000 .f32) (x : FVec Ideal S10000x256 .f32) (W : FVec Ideal S256x256 .f32) :
    out (F := Ideal) A x W = Cert.Gcn.G A (support x W) := by
  funext i
  obtain ⟨p, q, rfl⟩ : ∃ (p : Fin 10000) (q : Fin 256), i = ix2 p q := ⟨i 0, i 1, eq_ix2 i⟩
  rw [Cert.Gcn.G_ix2, ← adj_dot_apply]
  exact rectify_apply _ _

end Cert.ReferenceIdeal.RefValue

end
-- ==== Proof.lean ====
/-
  A graph-convolution layer: rectify (A · (x · W)) with the leaky rectifier of slope 0.01, for an
  adjacency A : 10000 × 10000, features x : 10000 × 256 and weights W : 256 × 256.

  The kernel walks 25 blocks of 400 rows of A. At the first block it forms x · W once and keeps it in a
  buffer it carries from block to block; at every block it multiplies the block's 400 rows of A by that
  buffer, rectifies, and writes the 400 rows of the result. The reference forms x · W, then A · (x · W),
  then rectifies, each over the whole arrays.

  Over the extended reals both results are, at (i, n), the rectifier of ∑ k, A i k * (x · W) k n:
  a product accumulated into a zero block is the plain product, re-laying an array in its own shape is
  the identity, row p of block t is row 400 t + p of A, and the rectifier is the same pointwise
  function with the same two binary words (the zero and the slope) on both sides. The product x · W is
  formed by the same operation of the same arrays on both sides and is never opened. No law used here
  needs the inputs to be finite, so the precondition is not used.

  The three frames: the kernel's two are the generated frame runs; the reference's is its run (ten
  host operations once its two calls are opened) with the result dropped. The idealisation rewrote
  nothing, so there is nothing to preserve.
-/
import proofs.«121845_g28767690949396_cont_9to1_1480_5_alg».proof.Defs
import proofs.«121845_g28767690949396_cont_9to1_1480_5_alg».proof.Proof.Gen.Kernel
import proofs.«121845_g28767690949396_cont_9to1_1480_5_alg».proof.Proof.Gen.Kernel.Frame
import proofs.«121845_g28767690949396_cont_9to1_1480_5_alg».proof.Proof.Gen.KernelIdeal
import proofs.«121845_g28767690949396_cont_9to1_1480_5_alg».proof.Proof.Gen.KernelIdeal.Frame
import proofs.«121845_g28767690949396_cont_9to1_1480_5_alg».proof.Proof.Gen.KernelIdeal.Value
import proofs.«121845_g28767690949396_cont_9to1_1480_5_alg».proof.Proof.Gen.ReferenceIdeal
import proofs.«121845_g28767690949396_cont_9to1_1480_5_alg».proof.Proof.Gen.Pre_finite_inputs
import proofs.«121845_g28767690949396_cont_9to1_1480_5_alg».proof.Proof.Blocks
import proofs.«121845_g28767690949396_cont_9to1_1480_5_alg».proof.Proof.RefValue
import Idealize.ShloMosaic.Adequacy
import Idealize.ShloMosaic.Init

noncomputable section

namespace Cert.Proof

open Idealize.ShloMosaic Idealize.SL.Sem

/-- The kernel and the reference form the projected features by the same product of the same arrays. -/
theorem support_eq (x : FVec Ideal Cert.ReferenceIdeal.S10000x256 .f32) (W : FVec Ideal Cert.ReferenceIdeal.S256x256 .f32) :
    Cert.ReferenceIdeal.RefRun.support (F := Ideal) x W = Cert.KernelIdeal.Payload.support x W := rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result at the specification's function of the adjacency and the projected
    features, from memories that agree on the three arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefValue.out_eq, support_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
